-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn_part1 {F : FTy → Type} [FloatOps F] (main_arg1 : FVec F S128x100000 .f32) (main_v14 : IVec S_ 1) (main_v15 : FVec F S128x100000 .f32) : IVec S_ 1 :=
  let main_v16 : FVec F S128x100000 .f32 := addf main_arg1 main_v15
  let main_v17 : FVec F S128x100000 .f32 := Host.log main_v16
  let main_v18 : FVec F S128x100000 .f32 := Host.negf main_v17
  let main_cst_6 : FVec F S_ .f32 := constant S_ .f32 0x1E3CE508#32
  let main_v19 : FVec F S128x100000 .f32 := broadcastInDim S128x100000 ![] bcast_S_S128x100000 main_cst_6
  let main_v20 : FVec F S128x100000 .f32 := addf main_v18 main_v19
  let main_cst_7 : FVec F S_ .f32 := constant S_ .f32 0x00000000#32
  let main_v21 : FVec F S128x100000 .f32 := broadcastInDim S128x100000 ![] bcast_S_S128x100000 main_cst_7
  let main_v22 : IVec S128x100000 1 := cmpf .ogt main_v20 main_v21
  let main_c_8 : IVec S_ 1 := constantI S_ 1 1#1
  let main_v23 : IVec S_ 1 := (fun x v => Host.reduce IntOp.andi x v reducesTo_S128x100000_S_d0_1 h_S_) main_v22 main_c_8
  let main_v24 : IVec S_ 1 := andi main_v14 main_v23
  main_v24

def fn {F : FTy → Type} [FloatOps F] (main_arg0 : FVec F S128x100000 .f32) (main_arg1 : FVec F S128x100000 .f32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  let main_v4 : FVec F S128x100000 .f32 := Host.absf main_arg1
  let main_cst_0 : FVec F S_ .f32 := constant S_ .f32 0x7F800000#32
  let main_v5 : FVec F S128x100000 .f32 := broadcastInDim S128x100000 ![] bcast_S_S128x100000 main_cst_0
  let main_v6 : IVec S128x100000 1 := cmpf .olt main_v4 main_v5
  let main_c_1 : IVec S_ 1 := constantI S_ 1 1#1
  let main_v7 : IVec S_ 1 := (fun x v => Host.reduce IntOp.andi x v reducesTo_S128x100000_S_d0_1 h_S_) main_v6 main_c_1
  let main_v8 : IVec S_ 1 := andi main_v3 main_v7
  let main_cst_2 : FVec F S_ .f32 := constant S_ .f32 0x1E3CE508#32
  let main_v9 : FVec F S128x100000 .f32 := broadcastInDim S128x100000 ![] bcast_S_S128x100000 main_cst_2
  let main_v10 : FVec F S128x100000 .f32 := addf main_arg1 main_v9
  let main_cst_3 : FVec F S_ .f32 := constant S_ .f32 0x00000000#32
  let main_v11 : FVec F S128x100000 .f32 := broadcastInDim S128x100000 ![] bcast_S_S128x100000 main_cst_3
  let main_v12 : IVec S128x100000 1 := cmpf .ogt main_v10 main_v11
  let main_c_4 : IVec S_ 1 := constantI S_ 1 1#1
  let main_v13 : IVec S_ 1 := (fun x v => Host.reduce IntOp.andi x v reducesTo_S128x100000_S_d0_1 h_S_) main_v12 main_c_4
  let main_v14 : IVec S_ 1 := andi main_v8 main_v13
  let main_cst_5 : FVec F S_ .f32 := constant S_ .f32 0x1E3CE508#32
  let main_v15 : FVec F S128x100000 .f32 := broadcastInDim S128x100000 ![] bcast_S_S128x100000 main_cst_5
  fn_part1 (F := F) main_arg1 main_v14 main_v15
-- ==== Kernel.lean ====
abbrev S128x100000 : Shape := ⟨2, ![128, 100000]⟩
abbrev S8x100000 : Shape := ⟨2, ![8, 100000]⟩
abbrev S8 : Shape := ⟨1, ![8]⟩
abbrev S8x1 : Shape := ⟨2, ![8, 1]⟩

abbrev nBuf : Space → Nat
  | .hbm => 3
  | .vmem => 6
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x100000, .f32⟩
  | .local _ .vmem, ⟨5, _⟩ => ⟨S8x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x100000_S8x100000_0_0 : ∀ a, (![0, 0] : Fin 2 → Nat) a + S8x100000.size a ≤ S8x100000.size a
  h_S8x100000 : 0 < S8x100000.numel
  reduces_S8x100000_S8 : S8x100000.Reduces [1] S8
  shapeCasts_S8_S8x1 : S8.ShapeCasts S8x1
  broadcasts_S8x1_S8x100000 : S8x1.Broadcasts S8x100000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x100000.size a ≤ S128x100000.size a
  hwx0_0 : ∀ i : grid0.Coords, EltTy.bits .f32 = 32 ∨ (Rect.block (s := S128x100000) S8x100000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x100000.size a ≤ S128x100000.size a
  hwx0_1 : ∀ i : grid0.Coords, EltTy.bits .f32 = 32 ∨ (Rect.block (s := S128x100000) S8x100000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x100000.size a ≤ S128x100000.size a
  hwx0_2 : ∀ i : grid0.Coords, EltTy.bits .f32 = 32 ∨ (Rect.block (s := S128x100000) S8x100000.size (cc0_transform_2 i) (hinb0_2 i)).WholeWords (EltTy.packing .f32)

variable [Facts₀]

abbrev win0_0 : Pipeline.Window sig grid0 :=
  Pipeline.Window.ofSpec (Memref.whole main_arg0) S8x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x100000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x100000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩

abbrev nBuf : Space → Nat
  | .hbm => 30
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S_, .f32⟩
  | .hbm, ⟨3, _⟩ => ⟨S128x100000, .f32⟩
  | .hbm, ⟨4, _⟩ => ⟨S128x100000, .f32⟩
  | .hbm, ⟨5, _⟩ => ⟨S128x100000, .f32⟩
  | .hbm, ⟨6, _⟩ => ⟨S128x100000, .f32⟩
  | .hbm, ⟨7, _⟩ => ⟨S_, .f32⟩
  | .hbm, ⟨8, _⟩ => ⟨S128x100000, .f32⟩
  | .hbm, ⟨9, _⟩ => ⟨S128x100000, .f32⟩
  | .hbm, ⟨10, _⟩ => ⟨S128x100000, .f32⟩
  | .hbm, ⟨11, _⟩ => ⟨S128x100000, .f32⟩
  | .hbm, ⟨12, _⟩ => ⟨S128x100000, .f32⟩
  | .hbm, ⟨13, _⟩ => ⟨S_, .f32⟩
  | .hbm, ⟨14, _⟩ => ⟨S128x100000, .f32⟩
  | .hbm, ⟨15, _⟩ => ⟨S128x100000, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S128x1, .f32⟩
  | .hbm, ⟨22, _⟩ => ⟨S128x100000, .f32⟩
  | .hbm, ⟨23, _⟩ => ⟨S128x100000, .f32⟩
  | .hbm, ⟨24, _⟩ => ⟨S128x100000, .f32⟩
  | .hbm, ⟨25, _⟩ => ⟨S_, .f32⟩
  | .hbm, ⟨26, _⟩ => ⟨S128, .f32⟩
  | .hbm, ⟨27, _⟩ => ⟨S128x1, .f32⟩
  | .hbm, ⟨28, _⟩ => ⟨S128x100000, .f32⟩
  | .hbm, ⟨29, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S_S128x100000 : S_.BroadcastsInDim S128x100000 (![] : Fin 0 → Fin S128x100000.rank)
  reducesTo_S128x100000_S128_d1 : S128x100000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)

variable [Facts₀]

class Facts : Prop extends Facts₀ where

variable [Facts]
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«166174_g60181081751824_cont_9to1c4b_545_4_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.LibRowSoftmax.lean ====
/-
  The log-softmax of a row, and the two ways the programs spell it on a matrix.

  For a row z of extended reals and a starting value b for the maximum, the log-softmax at position j is
  (z j − M) − log Σ_k exp (z k − M) with M the maximum of b and the row's entries.  A kernel computes it on an [a, b]
  block with lane reductions kept as columns and broadcast back across the lanes; a host program computes it with
  reductions from an initial value, takes the maximum of the row maximum with the initial value once more, and lays the
  columns out by broadcasts.  Read at entry (r, j), both are the row function at row r: the second maximum changes
  nothing because the fold already starts from b, and the host's sum starts from zero.
-/
import Idealize.ShloMosaic.PureOps.Ideal.Laws
import Idealize.ShloMosaic.Lib.IdealHost
import Idealize.ShloMosaic.Lib.ValueLayout
import proofs.«166174_g60181081751824_cont_9to1c4b_545_4_alg».proof.Proof.LibColumns
import proofs.«166174_g60181081751824_cont_9to1c4b_545_4_alg».proof.Proof.LibRowSums

open scoped BigOperators

noncomputable section

namespace Cert.LibRowSoftmax

open Idealize.ShloMosaic Idealize.ShloMosaic.ValueIdx

/-- The maximum of a starting value and the entries of a row. -/
def rowMax {n : ℕ} (b : EReal) (z : Fin n → EReal) : EReal := (Finset.univ : Finset (Fin n)).fold max b z

/-- The log-softmax of a row at position `j`, the maximum taken from the starting value `b`. -/
def lsm {n : ℕ} (b : EReal) (z : Fin n → EReal) (j : Fin n) : EReal :=
  (z j - rowMax b z) - Ideal.log (∑ k : Fin n, Ideal.exp (z k - rowMax b z))

/-- The fold of a maximum from `b` is at least `b`, so taking the maximum with `b` once more changes nothing. -/
theorem max_rowMax {n : ℕ} (b : EReal) (z : Fin n → EReal) : max b (rowMax b z) = rowMax b z :=
  max_eq_right ((Finset.le_fold_max b).mpr (Or.inl le_rfl))

/-- A KERNEL's row maximum kept as a column and broadcast back: at `(r, j)` it is the row's maximum from the
    accumulator's value. -/
theorem laneMax_apply {a b : ℕ} (z : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩) (r : Fin a) (j : Fin b) :
    broadcastTo ⟨2, ![a, b]⟩ (shapeCast ⟨2, ![a, 1]⟩ (multiReduction .maximumf [1] ⟨1, ![a]⟩ z acc h hφ hacc) hc) hb (ix2 r j)
      = rowMax (Ideal.ofBits .f32 acc) (fun k => z (ix2 r k)) := by
  rw [Cert.LibColumns.broadcastTo_a1_ab_apply, Cert.LibColumns.shapeCast_a_a1_apply]
  refine (Ideal.multiReduction_maximumf_single z acc h hφ hacc (ix1 r)).trans ?_
  show (Finset.univ : Finset (Fin b)).fold max (Ideal.ofBits .f32 acc) (fun k => z (h.lift (ix1 r) k)) = _
  unfold rowMax
  exact congrArg (fun f : Fin b → EReal => Finset.fold max (Ideal.ofBits .f32 acc) f Finset.univ)
    (funext fun k => congrArg z (Cert.LibRowSums.lift_row h r k))

/-- A KERNEL's log-softmax of an [a, b] block, read at `(r, j)`: the row function at row `r`. -/
theorem kernel_apply {a b : ℕ} (z : FVec Ideal ⟨2, ![a, b]⟩ .f32) (accM accS : BitVec 32)
    (h : (⟨2, ![a, b]⟩ : Shape).Reduces [1] ⟨1, ![a]⟩) (hφ : FKind.Formats .f32)
    (haccM : accM = FKind.maximumf.neutral .f32 hφ) (haccS : accS = FKind.add.neutral .f32 hφ)
    (hc : (⟨1, ![a]⟩ : Shape).ShapeCasts ⟨2, ![a, 1]⟩) (hb : (⟨2, ![a, 1]⟩ : Shape).Broadcasts ⟨2, ![a, b]⟩) (r : Fin a) (j : Fin b) :
    subf (subf z (broadcastTo ⟨2, ![a, b]⟩ (shapeCast ⟨2, ![a, 1]⟩ (multiReduction .maximumf [1] ⟨1, ![a]⟩ z accM h hφ haccM) hc) hb))
        (broadcastTo ⟨2, ![a, b]⟩ (log (shapeCast ⟨2, ![a, 1]⟩ (multiReduction .add [1] ⟨1, ![a]⟩
          (exp (subf z (broadcastTo ⟨2, ![a, b]⟩ (shapeCast ⟨2, ![a, 1]⟩ (multiReduction .maximumf [1] ⟨1, ![a]⟩ z accM h hφ haccM) hc) hb)))
          accS h hφ haccS) hc)) hb) (ix2 r j)
      = lsm (Ideal.ofBits .f32 accM) (fun k => z (ix2 r k)) j := by
  have hM : ∀ k : Fin b, subf z (broadcastTo ⟨2, ![a, b]⟩ (shapeCast ⟨2, ![a, 1]⟩ (multiReduction .maximumf [1] ⟨1, ![a]⟩ z accM h hφ haccM) hc) hb) (ix2 r k)
      = z (ix2 r k) - rowMax (Ideal.ofBits .f32 accM) (fun k => z (ix2 r k)) := fun k => by
    rw [subf_apply, laneMax_apply]
  rw [subf_apply, hM j, Cert.LibColumns.broadcastTo_a1_ab_apply]
  show _ - Ideal.log (shapeCast ⟨2, ![a, 1]⟩ (multiReduction (F := Ideal) .add [1] ⟨1, ![a]⟩ _ accS h hφ haccS) hc (ix2 r (0 : Fin 1))) = _
  rw [Cert.LibRowSums.laneSum_apply]
  unfold lsm
  refine congrArg (fun s => _ - Ideal.log s) (Finset.sum_congr rfl fun k _ => ?_)
  show Ideal.exp (subf z _ (ix2 r k)) = _
  rw [hM k]

/-- A HOST program's row maximum, taken once more with the initial value, laid out as a column and broadcast across:
    at `(r, j)` it is the row's maximum from the initial value. -/
theorem hostMax_apply {a b : ℕ} {u : Shape} (z : FVec Ideal ⟨2, ![a, b]⟩ .f32) (init : u.Idx → Ideal .f32) (v : EReal)
    (h' : (⟨2, ![a, b]⟩ : Shape).ReducesTo [1] ⟨1, ![a]⟩) (hu : 0 < u.numel) (hv : init (Shape.Idx.first hu) = v)
    (h : (⟨2, ![a, b]⟩ : Shape).Reduces [1] ⟨1, ![a]⟩)
    (hb1 : (⟨1, ![a]⟩ : Shape).BroadcastsInDim ⟨2, ![a, 1]⟩ ![0]) (hb2 : (⟨2, ![a, 1]⟩ : Shape).BroadcastsInDim ⟨2, ![a, b]⟩ ![0, 1])
    (w : FVec Ideal ⟨1, ![a]⟩ .f32) (hw : ∀ i, w i = v) (r : Fin a) (j : Fin b) :
    broadcastInDim ⟨2, ![a, b]⟩ ![0, 1] hb2 (broadcastInDim ⟨2, ![a, 1]⟩ ![0] hb1
        (maximumf w (Host.reduce FloatOps.maximumf z init h' hu))) (ix2 r j)
      = rowMax v (fun k => z (ix2 r k)) := by
  rw [Cert.LibRowSums.broadcastInDim_a1_ab_apply, Cert.LibRowSums.broadcastInDim_a_a1_apply, maximumf_apply, hw,
    Host.reduce_eq_fold_single FloatOps.maximumf z init h' h hu, hv]
  refine Eq.trans ?_ (max_rowMax v _)
  unfold rowMax
  show max v (Finset.fold max v (fun k => z (h.lift (ix1 r) k)) Finset.univ) = _
  exact congrArg (fun f : Fin b → EReal => max v (Finset.fold max v f Finset.univ))
    (funext fun k => congrArg z (Cert.LibRowSums.lift_row h r k))

end Cert.LibRowSoftmax

end
-- ==== Proof.LibGumbelSoftmax.lean ====
/-
  One row of a softmax over logits perturbed by Gumbel noise, in two arrangements, over the extended reals.

  For a row of logits x and a row of uniform noise u, with a small ε, put a k = u k + ε, d k = ε − log (a k) and
  g k = −log (d k).  The perturbed logits are y k = x k + g k, and the row's softmax is
  exp (y j − max y) / Σ_k exp (y k − max y).  Since exp (g k) = 1 / d k, the numerator factors as
  exp (x j − c) · (1 / d j) · exp (c − max y) for ANY real c, and the common factor exp (c − max y) cancels between the
  numerator and the sum.  So the softmax is also  e j · (1 / Σ_k e k)  with  e k = exp (x k − max x) · (1 / d k):
  one logarithm per entry instead of two, and the maximum taken over the logits alone.

  Both arrangements are written below with the operations of the extended reals, exactly as a program spells them
  (the quotient, the logarithm and the exponential with their conventions at the corners), and shown equal where
  every a k and every d k is a positive real and the logits are real: there every quantity is a real number, the sums
  are positive, and the identity is the one above.
-/
import Mathlib.Tactic
import Idealize.ShloMosaic.PureOps.Ideal
import proofs.«166174_g60181081751824_cont_9to1c4b_545_4_alg».proof.Proof.LibRowSoftmax

open scoped BigOperators

noncomputable section

namespace Cert.LibGumbelSoftmax

open Idealize.ShloMosaic
open Cert.LibRowSoftmax (rowMax)

variable {n : ℕ}

/-- The weight exp (g) of one noise entry, with a single logarithm: 1 / (ε − log (u + ε)). -/
def wgt (e u : EReal) : EReal := Ideal.div 1 (e - Ideal.log (u + e))

/-- The weighted numerator of entry `k`: exp (x k − max x) · weight (u k). -/
def kerNum (e : EReal) (x u : Fin n → EReal) (k : Fin n) : EReal :=
  Ideal.exp (x k - rowMax ⊥ x) * wgt e (u k)

/-- The row in the one-logarithm arrangement: the weighted numerator times the reciprocal of the row's sum of them. -/
def kerRow (e : EReal) (x u : Fin n → EReal) (j : Fin n) : EReal :=
  kerNum e x u j * Ideal.div 1 (∑ k : Fin n, kerNum e x u k)

/-- One perturbed logit, (x + (−log (−log (u + ε) + ε))) / 1. -/
def pert (e x u : EReal) : EReal := Ideal.div (x + -(Ideal.log (-(Ideal.log (u + e)) + e))) 1

/-- The row in the two-logarithm arrangement: the softmax of the perturbed logits, the sum started from zero. -/
def refRow (e : EReal) (x u : Fin n → EReal) (j : Fin n) : EReal :=
  Ideal.div (Ideal.exp (pert e (x j) (u j) - rowMax ⊥ (fun k => pert e (x k) (u k))))
    (0 + ∑ k : Fin n, Ideal.exp (pert e (x k) (u k) - rowMax ⊥ (fun k => pert e (x k) (u k))))

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The maximum of a nonempty row of reals, folded from −∞, is a real. -/
theorem rowMax_real (hn : 0 < n) (z : Fin n → ℝ) : ∃ c : ℝ, rowMax ⊥ (fun k => (z k : EReal)) = (c : EReal) := by
  have h1 : rowMax ⊥ (fun k => (z k : EReal)) ≠ ⊤ := by
    apply ne_of_lt
    unfold rowMax
    exact (Finset.fold_max_lt ⊤).mpr ⟨bot_lt_top, fun k _ => EReal.coe_lt_top _⟩
  have h2 : rowMax ⊥ (fun k => (z k : EReal)) ≠ ⊥ := by
    apply ne_of_gt
    unfold rowMax
    exact (Finset.lt_fold_max ⊥).mpr (Or.inr ⟨⟨0, hn⟩, Finset.mem_univ _, EReal.bot_lt_coe _⟩)
  exact ⟨(rowMax ⊥ fun k => (z k : EReal)).toReal, (EReal.coe_toReal h1 h2).symm⟩

/-- The identity on the reals: with d k > 0, the softmax of x k − log (d k) from any shift M is the weighted row
    exp (x j − c) · (1 / d j) over its sum, from any shift c. -/
theorem real_law (hn : 0 < n) (x d : Fin n → ℝ) (c M : ℝ) (hd : ∀ k, 0 < d k) (j : Fin n) :
    Real.exp (x j - c) * (1 / d j) * (1 / ∑ k : Fin n, Real.exp (x k - c) * (1 / d k))
      = Real.exp (x j - Real.log (d j) - M) * (1 / ∑ k : Fin n, Real.exp (x k - Real.log (d k) - M)) := by
  have key : ∀ k, Real.exp (x k - Real.log (d k) - M) = Real.exp (x k - c) * (1 / d k) * Real.exp (c - M) := fun k => by
    rw [show x k - Real.log (d k) - M = (x k - c) + (c - M) - Real.log (d k) by ring, Real.exp_sub, Real.exp_add,
      Real.exp_log (hd k)]
    ring
  have hS : 0 < ∑ k : Fin n, Real.exp (x k - c) * (1 / d k) :=
    Finset.sum_pos (fun k _ => mul_pos (Real.exp_pos _) (one_div_pos.mpr (hd k))) ⟨⟨0, hn⟩, Finset.mem_univ _⟩
  have hK : 0 < Real.exp (c - M) := Real.exp_pos _
  simp only [key]
  rw [← Finset.sum_mul]
  field_simp

/-- THE TWO ARRANGEMENTS AGREE on a nonempty row of real logits and real noise whose two logarithms are taken of
    positive numbers (u k + ε > 0 and −log (u k + ε) + ε > 0). -/
theorem kerRow_eq_refRow (hn : 0 < n) (e : ℝ) (x u : Fin n → ℝ)
    (ha : ∀ k, (0 : EReal) < (u k : EReal) + (e : EReal))
    (hd : ∀ k, (0 : EReal) < -(Ideal.log ((u k : EReal) + (e : EReal))) + (e : EReal)) (j : Fin n) :
    kerRow (e : EReal) (fun k => (x k : EReal)) (fun k => (u k : EReal)) j
      = refRow (e : EReal) (fun k => (x k : EReal)) (fun k => (u k : EReal)) j := by
  have ha' : ∀ k, 0 < u k + e := fun k => by
    have h := ha k
    rw [← EReal.coe_add] at h
    exact_mod_cast h
  have hlog : ∀ k, Ideal.log ((u k : EReal) + (e : EReal)) = ((Real.log (u k + e) : ℝ) : EReal) := fun k => by
    rw [← EReal.coe_add, Ideal.log_coe, if_neg (not_le.mpr (ha' k))]
  have hd' : ∀ k, 0 < e - Real.log (u k + e) := fun k => by
    have h := hd k
    rw [hlog k, ← EReal.coe_neg, ← EReal.coe_add] at h
    have h2 : (0 : ℝ) < -Real.log (u k + e) + e := by exact_mod_cast h
    linarith
  -- the one-logarithm side, entry by entry
  have hw : ∀ k, wgt (e : EReal) (u k : EReal) = ((1 / (e - Real.log (u k + e)) : ℝ) : EReal) := fun k => by
    unfold wgt
    rw [hlog k, ← EReal.coe_sub, Ideal.div_coe (ne_of_gt (hd' k)), one_mul]
  obtain ⟨c, hc⟩ := rowMax_real hn x
  have hnum : ∀ k, kerNum (e : EReal) (fun k => (x k : EReal)) (fun k => (u k : EReal)) k
      = ((Real.exp (x k - c) * (1 / (e - Real.log (u k + e))) : ℝ) : EReal) := fun k => by
    show Ideal.exp ((x k : EReal) - rowMax ⊥ (fun k => (x k : EReal))) * wgt (e : EReal) (u k : EReal) = _
    rw [hc, hw k, ← EReal.coe_sub, Ideal.exp_coe, ← EReal.coe_mul]
  have hS : 0 < ∑ k : Fin n, Real.exp (x k - c) * (1 / (e - Real.log (u k + e))) :=
    Finset.sum_pos (fun k _ => mul_pos (Real.exp_pos _) (one_div_pos.mpr (hd' k))) ⟨⟨0, hn⟩, Finset.mem_univ _⟩
  have hker : kerRow (e : EReal) (fun k => (x k : EReal)) (fun k => (u k : EReal)) j
      = ((Real.exp (x j - c) * (1 / (e - Real.log (u j + e)))
          * (1 / ∑ k : Fin n, Real.exp (x k - c) * (1 / (e - Real.log (u k + e)))) : ℝ) : EReal) := by
    unfold kerRow
    simp only [hnum]
    rw [← coe_sum, Ideal.div_coe (ne_of_gt hS), one_mul, ← EReal.coe_mul]
  -- the two-logarithm side, entry by entry
  have hp : ∀ k, pert (e : EReal) (x k : EReal) (u k : EReal)
      = ((x k - Real.log (e - Real.log (u k + e)) : ℝ) : EReal) := fun k => by
    unfold pert
    rw [hlog k, ← EReal.coe_neg, ← EReal.coe_add, Ideal.log_coe,
      if_neg (not_le.mpr (by have := hd' k; linarith : (0 : ℝ) < -Real.log (u k + e) + e)),
      ← EReal.coe_neg, ← EReal.coe_add, ← EReal.coe_one, Ideal.div_coe one_ne_zero, ← EReal.coe_mul]
    congr 1
    rw [show -Real.log (u k + e) + e = e - Real.log (u k + e) by ring]
    ring
  obtain ⟨M, hM⟩ := rowMax_real hn (fun k => x k - Real.log (e - Real.log (u k + e)))
  have hexp : ∀ k, Ideal.exp (pert (e : EReal) (x k : EReal) (u k : EReal)
        - rowMax ⊥ (fun k => pert (e : EReal) (x k : EReal) (u k : EReal)))
      = ((Real.exp (x k - Real.log (e - Real.log (u k + e)) - M) : ℝ) : EReal) := fun k => by
    simp only [hp]
    rw [hM, ← EReal.coe_sub, Ideal.exp_coe]
  have hS' : 0 < ∑ k : Fin n, Real.exp (x k - Real.log (e - Real.log (u k + e)) - M) :=
    Finset.sum_pos (fun k _ => Real.exp_pos _) ⟨⟨0, hn⟩, Finset.mem_univ _⟩
  have href : refRow (e : EReal) (fun k => (x k : EReal)) (fun k => (u k : EReal)) j
      = ((Real.exp (x j - Real.log (e - Real.log (u j + e)) - M)
          * (1 / ∑ k : Fin n, Real.exp (x k - Real.log (e - Real.log (u k + e)) - M)) : ℝ) : EReal) := by
    unfold refRow
    simp only [hexp]
    rw [← coe_sum, zero_add, Ideal.div_coe (ne_of_gt hS'), ← EReal.coe_mul]
  rw [hker, href]
  exact congrArg _ (real_law hn x (fun k => e - Real.log (u k + e)) c M hd' j)

end Cert.LibGumbelSoftmax

end
-- ==== Proof.Consts.lean ====
/-
  The float words the two programs and the input condition spell, as the extended reals they denote: 1.0 is 1, the
  two infinity words are ⊤ and ⊥, and the small ε (the float nearest 1e-20) is a real number.  Its exact value never
  matters: both programs and the input condition carry the same word.
-/
import Idealize.ShloMosaic.PureOps.Ideal

noncomputable section

namespace Cert.Consts

open Idealize.ShloMosaic

/-- The word of `1.0` denotes `1`. -/
theorem ofBits_one : Ideal.ofBits .f32 0x3F800000#32 = 1 := by
  simp [Ideal.ofBits, Ideal.ieee, -EReal.coe_mul]; norm_num

/-- The word of `-inf` denotes `⊥`. -/
theorem ofBits_ninf : Ideal.ofBits .f32 0xFF800000#32 = ⊥ := by
  simp [Ideal.ofBits, Ideal.ieee]

/-- The word of `+inf` denotes `⊤`. -/
theorem ofBits_inf : Ideal.ofBits .f32 0x7F800000#32 = ⊤ := by
  simp [Ideal.ofBits, Ideal.ieee]

/-- The word of `+0.0` denotes `0`. -/
theorem ofBits_zero : Ideal.ofBits .f32 0x00000000#32 = 0 := by
  simp [Ideal.ofBits, Ideal.ieee]

/-- The small ε the programs add under their logarithms, as a real number. -/
def eps : ℝ := (Ideal.ofBits .f32 0x1E3CE508#32).toReal

/-- The word of ε denotes that real: it is neither infinity. -/
theorem ofBits_eps : Ideal.ofBits .f32 0x1E3CE508#32 = (eps : EReal) := by
  refine (EReal.coe_toReal ?_ ?_).symm <;> simp [Ideal.ofBits, Ideal.ieee, -EReal.coe_mul]

end Cert.Consts

end
-- ==== Proof.KernelRow.lean ====
/-
  The kernel's block, entry by entry, is the one-logarithm arrangement of the row.

  A block is 8 rows by 100000 lanes of logits (P0) and of noise (P1).  The body forms, at every entry, the weighted
  numerator exp (x − c) · (1 / (ε − log (u + ε))) with c the maximum of the entry's row (a lane maximum from −∞, kept
  as a column and broadcast back), sums the numerators along the lanes (a lane sum from zero, kept as a column), and
  multiplies each numerator by the reciprocal of its row's sum.  Read at entry (r, q), this is the row function of
  row r at position q.
-/
import proofs.«166174_g60181081751824_cont_9to1c4b_545_4_alg».proof.Proof.Gen.KernelIdeal.Value
import Idealize.ShloMosaic.Lib.ValueIdx
import Idealize.ShloMosaic.PureOps.Ideal.Laws
import proofs.«166174_g60181081751824_cont_9to1c4b_545_4_alg».proof.Proof.LibColumns
import proofs.«166174_g60181081751824_cont_9to1c4b_545_4_alg».proof.Proof.LibRowSums
import proofs.«166174_g60181081751824_cont_9to1c4b_545_4_alg».proof.Proof.LibRowSoftmax
import proofs.«166174_g60181081751824_cont_9to1c4b_545_4_alg».proof.Proof.LibGumbelSoftmax
import proofs.«166174_g60181081751824_cont_9to1c4b_545_4_alg».proof.Proof.Consts

open scoped BigOperators

noncomputable section

namespace Cert.KernelRow

open Cert.KernelIdeal Cert.KernelIdeal.Gen Idealize.ShloMosaic Idealize.ShloMosaic.ValueIdx
open Cert.LibRowSoftmax (rowMax)
open Cert.LibGumbelSoftmax (kerRow kerNum wgt)

/-- The lane maximum of a block, from −∞: one entry per row. -/
def maxVec (P0 : FVec Ideal S8x100000 .f32) : FVec Ideal S8 .f32 :=
  multiReduction .maximumf [1] S8 P0 0xFF800000#32 reduces_S8x100000_S8 (.inl rfl) rfl

/-- The weighted numerators of a block, as the body computes them. -/
def numVec (P0 P1 : FVec Ideal S8x100000 .f32) : FVec Ideal S8x100000 .f32 :=
  mulf (exp (subf P0 (broadcastTo S8x100000 (shapeCast S8x1 (maxVec P0) shapeCasts_S8_S8x1) broadcasts_S8x1_S8x100000)))
    (divf (broadcast S8x100000 (Scalar.ofBits .f32 0x3F800000#32))
      (subf (broadcast S8x100000 (Scalar.ofBits .f32 0x1E3CE508#32))
        (log (addf P1 (broadcast S8x100000 (Scalar.ofBits .f32 0x1E3CE508#32))))))

/-- The lane sum of the numerators, from zero: one entry per row. -/
def sumVec (P0 P1 : FVec Ideal S8x100000 .f32) : FVec Ideal S8 .f32 :=
  multiReduction .add [1] S8 (numVec P0 P1) 0x00000000#32 reduces_S8x100000_S8 (.inl rfl) rfl

/-- The lane maximum at row `r` is the maximum of the row's entries, folded from −∞. -/
theorem maxVec_apply (P0 : FVec Ideal S8x100000 .f32) (r : Fin 8) :
    maxVec P0 (ix1 r) = rowMax ⊥ (fun k => P0 (ix2 r k)) := by
  unfold maxVec
  refine (Ideal.multiReduction_maximumf_single P0 0xFF800000#32 reduces_S8x100000_S8 (.inl rfl) rfl (ix1 r)).trans ?_
  show (Finset.univ : Finset (Fin 100000)).fold max (Ideal.ofBits .f32 0xFF800000#32)
      (fun k => P0 (reduces_S8x100000_S8.lift (ix1 r) k)) = _
  rw [Cert.Consts.ofBits_ninf]
  unfold rowMax
  exact congrArg (fun f : Fin 100000 → EReal => Finset.fold max ⊥ f Finset.univ)
    (funext fun k => congrArg P0 (Cert.LibRowSums.lift_row reduces_S8x100000_S8 r k))

/-- A numerator at entry `(r, k)` is exp (x − max of row r) times the weight of the noise entry. -/
theorem numVec_apply (P0 P1 : FVec Ideal S8x100000 .f32) (r : Fin 8) (k : Fin 100000) :
    numVec P0 P1 (ix2 r k)
      = kerNum (Cert.Consts.eps : EReal) (fun k => P0 (ix2 r k)) (fun k => P1 (ix2 r k)) k := by
  have hB : broadcastTo S8x100000 (shapeCast S8x1 (maxVec P0) shapeCasts_S8_S8x1) broadcasts_S8x1_S8x100000 (ix2 r k)
      = rowMax ⊥ (fun k => P0 (ix2 r k)) := by
    refine (Cert.LibColumns.broadcastTo_a1_ab_apply _ broadcasts_S8x1_S8x100000 r k).trans ?_
    refine (Cert.LibColumns.shapeCast_a_a1_apply _ shapeCasts_S8_S8x1 r (0 : Fin 1)).trans ?_
    exact maxVec_apply P0 r
  show Ideal.exp (P0 (ix2 r k)
        - broadcastTo S8x100000 (shapeCast S8x1 (maxVec P0) shapeCasts_S8_S8x1) broadcasts_S8x1_S8x100000 (ix2 r k))
      * Ideal.div (Ideal.ofBits .f32 0x3F800000#32)
          (Ideal.ofBits .f32 0x1E3CE508#32 - Ideal.log (P1 (ix2 r k) + Ideal.ofBits .f32 0x1E3CE508#32)) = _
  rw [hB, Cert.Consts.ofBits_one, Cert.Consts.ofBits_eps]
  rfl

/-- The lane sum at row `r` is the sum of the row's numerators. -/
theorem sumVec_apply (P0 P1 : FVec Ideal S8x100000 .f32) (r : Fin 8) :
    sumVec P0 P1 (ix1 r)
      = ∑ k : Fin 100000, kerNum (Cert.Consts.eps : EReal) (fun k => P0 (ix2 r k)) (fun k => P1 (ix2 r k)) k := by
  unfold sumVec
  refine (Ideal.multiReduction_add_single (numVec P0 P1) 0x00000000#32 reduces_S8x100000_S8 (.inl rfl) rfl (ix1 r)).trans ?_
  show (∑ k : Fin 100000, numVec P0 P1 (reduces_S8x100000_S8.lift (ix1 r) k)) = _
  exact Finset.sum_congr rfl fun k _ =>
    (congrArg (numVec P0 P1) (Cert.LibRowSums.lift_row reduces_S8x100000_S8 r k)).trans (numVec_apply P0 P1 r k)

/-- THE BLOCK THE BODY LEAVES, at entry `(r, q)`: the one-logarithm row function of row `r` at position `q`. -/
theorem block_apply (P0 P1 : FVec Ideal S8x100000 .f32) (r : Fin 8) (q : Fin 100000) :
    Cert.KernelIdeal.Value.E2 (F := Ideal) P0 P1 (ix2 r q)
      = kerRow (Cert.Consts.eps : EReal) (fun k => P0 (ix2 r k)) (fun k => P1 (ix2 r k)) q := by
  have i0 : Cert.KernelIdeal.Value.ix2_0 (ix2 r q) = ix2 r q :=
    funext fun a => Fin.ext (by match a with | ⟨0, _⟩ => rfl | ⟨1, _⟩ => rfl)
  have i1 : Cert.KernelIdeal.Value.ix2_1 (ix2 r q) = ix1 r :=
    funext fun a => Fin.ext (by match a with | ⟨0, _⟩ => rfl)
  have i2 : Cert.KernelIdeal.Value.ix2_2 (ix2 r q) = ix2 r q :=
    funext fun a => Fin.ext (by match a with | ⟨0, _⟩ => rfl | ⟨1, _⟩ => rfl)
  have i3 : Cert.KernelIdeal.Value.ix2_3 (ix2 r q) = ix1 r :=
    funext fun a => Fin.ext (by match a with | ⟨0, _⟩ => rfl)
  show (Ideal.exp (P0 (Cert.KernelIdeal.Value.ix2_0 (ix2 r q)) - maxVec P0 (Cert.KernelIdeal.Value.ix2_1 (ix2 r q)))
        * Ideal.div (Ideal.ofBits .f32 0x3F800000#32)
            (Ideal.ofBits .f32 0x1E3CE508#32
              - Ideal.log (P1 (Cert.KernelIdeal.Value.ix2_2 (ix2 r q)) + Ideal.ofBits .f32 0x1E3CE508#32)))
      * Ideal.div (Ideal.ofBits .f32 0x3F800000#32) (sumVec P0 P1 (Cert.KernelIdeal.Value.ix2_3 (ix2 r q))) = _
  rw [i0, i1, i2, i3, maxVec_apply, sumVec_apply, Cert.Consts.ofBits_one, Cert.Consts.ofBits_eps]
  rfl

end Cert.KernelRow

end
-- ==== Proof.WholeArray.lean ====
/-
  The result as ONE function of the two input arrays: entry (p, q) of the 128 × 100000 result is the one-logarithm
  row function of row p of the logits and of the noise, at position q.
-/
import Idealize.ShloMosaic.Lib.ValueIdx
import proofs.«166174_g60181081751824_cont_9to1c4b_545_4_alg».proof.Proof.LibGumbelSoftmax
import proofs.«166174_g60181081751824_cont_9to1c4b_545_4_alg».proof.Proof.Consts

noncomputable section

namespace Cert.WholeArray

open Idealize.ShloMosaic Idealize.ShloMosaic.ValueIdx
open Cert.LibGumbelSoftmax (kerRow)

/-- The shape of the inputs and of the result. -/
abbrev SArr : Shape := ⟨2, ![128, 100000]⟩

/-- The entry of `i`'s row at column `k`. -/
abbrev inRow (i : SArr.Idx) (k : Fin 100000) : SArr.Idx := fun a => match a with
  | ⟨0, _⟩ => ⟨(i 0).val, (i 0).isLt⟩
  | ⟨1, _⟩ => ⟨k.val, k.isLt⟩

/-- The column of `i`. -/
abbrev colOf (i : SArr.Idx) : Fin 100000 := ⟨(i 1).val, (i 1).isLt⟩

/-- THE RESULT ARRAY of logits `X` and noise `U`: every row is the row function of that row of `X` and of `U`. -/
def G (X U : FVec Ideal SArr .f32) : FVec Ideal SArr .f32 :=
  fun i => kerRow (Cert.Consts.eps : EReal) (fun k => X (inRow i k)) (fun k => U (inRow i k)) (colOf i)

/-- The result at `(p, q)`, the row written with the coordinates. -/
theorem G_apply (X U : FVec Ideal SArr .f32) (p : Fin 128) (q : Fin 100000) :
    G X U (ix2 p q) = kerRow (Cert.Consts.eps : EReal) (fun k => X (ix2 p k)) (fun k => U (ix2 p k)) q := by
  have hr : ∀ k : Fin 100000, inRow (ix2 p q) k = ix2 p k := fun k =>
    funext fun a => Fin.ext (by match a with | ⟨0, _⟩ => rfl | ⟨1, _⟩ => rfl)
  unfold G
  simp only [hr]

end Cert.WholeArray

end
-- ==== Proof.KernelArray.lean ====
/-
  From blocks to the array: after the kernel's run the result array is the whole-array function of the two inputs.

  Grid point t stages rows 8t … 8t+7 (all 100000 lanes) of the logits and of the noise, and writes back the same rows
  of the result.  What it writes back is, entry by entry, the row function of the staged rows — which are the arrays'
  own rows 8t + r — so it is block t of the whole-array function.  The sixteen blocks tile the 128 rows, so the array
  ends as that function everywhere.
-/
import proofs.«166174_g60181081751824_cont_9to1c4b_545_4_alg».proof.Proof.Gen.KernelIdeal.Value
import Idealize.ShloMosaic.Lib.Pipeline.Value
import Idealize.ShloMosaic.Lib.ValueIdx
import proofs.«166174_g60181081751824_cont_9to1c4b_545_4_alg».proof.Proof.KernelRow
import proofs.«166174_g60181081751824_cont_9to1c4b_545_4_alg».proof.Proof.WholeArray

noncomputable section

namespace Cert.KernelArray

open Cert.KernelIdeal Cert.KernelIdeal.Gen Cert.KernelIdeal.Value Idealize.ShloMosaic Idealize.ShloMosaic.TcCoe
  Idealize.SL.Sem Idealize.ShloMosaic.ValueIdx
open Idealize.ShloMosaic.Pipeline (Dat)
open Cert.WholeArray (G inRow colOf)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the sixteen grid points: the three windows move together along the rows, none moves along
    the lanes, and the row-block index stays below sixteen. -/
theorem idx_facts : ∀ t : Fin cfg0.N, win0_0.index t (0 : Fin 2) = win0_2.index t (0 : Fin 2)
    ∧ win0_1.index t (0 : Fin 2) = win0_2.index t (0 : Fin 2)
    ∧ win0_0.index t (1 : Fin 2) = 0 ∧ win0_1.index t (1 : Fin 2) = 0 ∧ win0_2.index t (1 : Fin 2) = 0
    ∧ win0_2.index t (0 : Fin 2) ≤ 15 :=
  (by decide +kernel : ∀ t : Fin grid0.N, _)

/-- Every one of the sixteen row blocks is some grid point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- What the body leaves in the output block, from the two input blocks, is the block function of KernelRow, entry by
    entry: the body's one store covers the block. -/
theorem out_apply (x0 x1 : Vec Ideal S8x100000 .f32) (y : S8x100000.Idx) :
    out0_2 x0 x1 y = Value.E2 (F := Ideal) x0 x1 y := by
  unfold out0_2
  refine (Value.canon2_eq (View.ld x0 r0_0) (View.ld x1 r0_0) y).trans ?_
  rw [View.ld_unit_zero (S := S8x100000) zero_offsets, View.ld_unit_zero (S := S8x100000) zero_offsets]

/-- WHAT POINT `t` WRITES BACK is block `t` of the whole-array function of the arrays as the region finds them. -/
theorem flushed_eq (c : Dev nD) (t : Fin cfg0.N) :
    (dats m 0 c).flushed 2 t
      = ((cfg0.win 2).blk t).view.read (Elt Ideal) (G (V m c main_arg0) (V m c main_arg1)) := by
  rw [Value.flushed2]
  obtain ⟨e0, e1, e2, e3, e4, e5⟩ := idx_facts t
  funext j
  show out0_2 (iblk m c 0 t) (iblk m c 1 t) j
      = G (V m c main_arg0) (V m c main_arg1) (((cfg0.win 2).blk t).view.emb j)
  refine (out_apply (iblk m c 0 t) (iblk m c 1 t) j).trans ?_
  obtain ⟨r, q, rfl⟩ : ∃ (r : Fin 8) (q : Fin 100000), j = ix2 r q := ⟨j 0, j 1, eq_ix2 j⟩
  refine (Cert.KernelRow.block_apply (iblk m c 0 t) (iblk m c 1 t) r q).trans ?_
  have h0 : (fun k : Fin 100000 => iblk m c 0 t (ix2 r k))
      = fun k => V m c main_arg0 (inRow (((cfg0.win 2).blk t).view.emb (ix2 r q)) k) := funext fun k => by
    show V m c main_arg0 (((cfg0.win 0).blk t).view.emb (ix2 r k)) = _
    refine congrArg _ (funext fun a => Fin.ext ?_)
    match a with
    | ⟨0, _⟩ =>
      show win0_0.index t (0 : Fin 2) * 8 + 1 * r.val = win0_2.index t (0 : Fin 2) * 8 + 1 * r.val
      omega
    | ⟨1, _⟩ =>
      show win0_0.index t (1 : Fin 2) * 100000 + 1 * k.val = k.val
      omega
  have h1 : (fun k : Fin 100000 => iblk m c 1 t (ix2 r k))
      = fun k => V m c main_arg1 (inRow (((cfg0.win 2).blk t).view.emb (ix2 r q)) k) := funext fun k => by
    show V m c main_arg1 (((cfg0.win 1).blk t).view.emb (ix2 r k)) = _
    refine congrArg _ (funext fun a => Fin.ext ?_)
    match a with
    | ⟨0, _⟩ =>
      show win0_1.index t (0 : Fin 2) * 8 + 1 * r.val = win0_2.index t (0 : Fin 2) * 8 + 1 * r.val
      omega
    | ⟨1, _⟩ =>
      show win0_1.index t (1 : Fin 2) * 100000 + 1 * k.val = k.val
      omega
  have hq : q = colOf (((cfg0.win 2).blk t).view.emb (ix2 r q)) := Fin.ext (by
    show q.val = win0_2.index t (1 : Fin 2) * 100000 + 1 * q.val
    omega)
  rw [h0, h1]
  exact congrArg _ hq

/-- An index of the array is in point `t`'s block iff each coordinate is in the block's range on its axis. -/
theorem mem_blk (t : Fin cfg0.N) (i : S128x100000.Idx) :
    i ∈ ((cfg0.win 2).blk t).view.set ↔ ∀ a : Fin 2, win0_2.index t a * S8x100000.size a ≤ (i a).val
      ∧ (i a).val < win0_2.index t a * S8x100000.size a + S8x100000.size a := by
  show i ∈ ((View.whole main_v0).slice (win0_2.rect t)).set ↔ _
  rw [View.set_slice_whole, Rect.mem_set_unit]
  exact Iff.rfl

/-- The blocks tile the array: entry `i` is in the block of the point whose row block is `(i 0) / 8`. -/
theorem cover (i : S128x100000.Idx) :
    ∃ t : Fin cfg0.N, (cfg0.win 2).flush t = true ∧ i ∈ ((cfg0.win 2).blk t).view.set := by
  have hi0 : (i 0).val < 128 := (i 0).isLt
  have hi1 : (i 1).val < 100000 := (i 1).isLt
  obtain ⟨t, ht⟩ := idx_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 8 ≤ (i 0).val ∧ (i 0).val < win0_2.index t (0 : Fin 2) * 8 + 8
    omega
  | ⟨1, _⟩ =>
    show win0_2.index t (1 : Fin 2) * 100000 ≤ (i 1).val ∧ (i 1).val < win0_2.index t (1 : Fin 2) * 100000 + 100000
    omega

/-- THE ARRAY after the run is the whole-array function of the argument arrays. -/
theorem final (c : Dev nD) :
    (dats m 0 c).arrAt 2 cfg0.N
      = G (m ((c : Thread nD τ).loc main_arg0)) (m ((c : Thread nD τ).loc main_arg1)) :=
  (dats m 0 c).arrAt_eq_of_cover 2 _ (fun t _ => flushed_eq m c t) cover

/-- The kernel's run: the result array at the whole-array function of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelArray

end
-- ==== Proof.ReferenceRow.lean ====
/-
  The reference's result, entry by entry, is the two-logarithm arrangement of the row.

  The reference perturbs every logit, y = (x + (−log (−log (u + ε) + ε))) / 1, takes each row's maximum of y (a reduce
  from −∞, then once more the maximum with −∞), subtracts it, exponentiates, sums each row from zero, and divides.
  The maximum and the sum are laid out as columns and broadcast back across the row.  Read at entry (p, q), this is the
  softmax of row p's perturbed logits at position q.
-/
import proofs.«166174_g60181081751824_cont_9to1c4b_545_4_alg».proof.Proof.Gen.ReferenceIdeal.Read
import Idealize.ShloMosaic.Lib.ValueIdx
import Idealize.ShloMosaic.PureOps.Ideal.Laws
import proofs.«166174_g60181081751824_cont_9to1c4b_545_4_alg».proof.Proof.LibColumns
import proofs.«166174_g60181081751824_cont_9to1c4b_545_4_alg».proof.Proof.LibRowSums
import proofs.«166174_g60181081751824_cont_9to1c4b_545_4_alg».proof.Proof.LibRowSoftmax
import proofs.«166174_g60181081751824_cont_9to1c4b_545_4_alg».proof.Proof.LibGumbelSoftmax
import proofs.«166174_g60181081751824_cont_9to1c4b_545_4_alg».proof.Proof.Consts

open scoped BigOperators

noncomputable section

namespace Cert.ReferenceRow

open Cert.ReferenceIdeal Cert.ReferenceIdeal.Gen Cert.ReferenceIdeal.Read Idealize.ShloMosaic Idealize.ShloMosaic.ValueIdx
open Cert.LibRowSoftmax (rowMax)
open Cert.LibGumbelSoftmax (refRow pert)

/-- A perturbed logit, at any entry: (x + (−log (−log (u + ε) + ε))) / 1. -/
theorem pert_apply (X U : FVec Ideal S128x100000 .f32) (i : S128x100000.Idx) :
    val_main_v10 (F := Ideal) X U i = pert (Cert.Consts.eps : EReal) (X i) (U i) := by
  rw [val_main_v10_apply, val_main_v9_apply, val_main_cst_1_apply, val_main_v8_apply, val_main_v7_apply,
    val_main_v6_apply, val_main_v5_apply, val_main_v4_apply, val_main_cst_0_apply, val_main_v3_apply,
    val_main_v2_apply, val_main_v1_apply, val_main_v0_apply, val_main_cst_apply]
  simp only [Ideal.hostDivf_def, Ideal.addf_def, Ideal.hostNegf_def, Ideal.negf_def, Ideal.hostUnary_log_def,
    Ideal.ofBits_def, Cert.Consts.ofBits_one, Cert.Consts.ofBits_eps]
  rfl

/-- The row maximum, laid out as a column and broadcast back: at `(p, q)` the maximum of row `p`'s perturbed logits
    folded from −∞ (the second maximum with −∞ changes nothing). -/
theorem max_apply (X U : FVec Ideal S128x100000 .f32) (p : Fin 128) (q : Fin 100000) :
    val_main_v15 (F := Ideal) X U (ix2 p q)
      = rowMax ⊥ (fun k => pert (Cert.Consts.eps : EReal) (X (ix2 p k)) (U (ix2 p k))) := by
  have hz : (fun k : Fin 100000 => val_main_v10 (F := Ideal) X U (ix2 p k))
      = fun k => pert (Cert.Consts.eps : EReal) (X (ix2 p k)) (U (ix2 p k)) := funext fun k => pert_apply X U (ix2 p k)
  rw [← hz]
  unfold val_main_v15 val_main_v14 val_main_v13 val_main_v11
  generalize val_main_v10 (F := Ideal) X U = z
  exact Cert.LibRowSoftmax.hostMax_apply z (val_main_cst_2 (F := Ideal)) ⊥ _ _
    ((val_main_cst_2_apply _).trans Cert.Consts.ofBits_ninf) (by decide) _ _ (val_main_v12 (F := Ideal))
    (fun i => (val_main_v12_apply i).trans ((val_main_cst_3_apply _).trans Cert.Consts.ofBits_ninf)) p q

/-- A shifted exponential, at entry `(p, k)`. -/
theorem exp_apply (X U : FVec Ideal S128x100000 .f32) (p : Fin 128) (k : Fin 100000) :
    val_main_v17 (F := Ideal) X U (ix2 p k)
      = Ideal.exp (pert (Cert.Consts.eps : EReal) (X (ix2 p k)) (U (ix2 p k))
          - rowMax ⊥ (fun k => pert (Cert.Consts.eps : EReal) (X (ix2 p k)) (U (ix2 p k)))) := by
  rw [val_main_v17_apply, val_main_v16_apply, max_apply, pert_apply]
  rfl

/-- The row sum, laid out as a column and broadcast back: at `(p, q)` zero plus the sum of row `p`'s shifted
    exponentials. -/
theorem sum_apply (X U : FVec Ideal S128x100000 .f32) (p : Fin 128) (q : Fin 100000) :
    val_main_v20 (F := Ideal) X U (ix2 p q)
      = 0 + ∑ k : Fin 100000, Ideal.exp (pert (Cert.Consts.eps : EReal) (X (ix2 p k)) (U (ix2 p k))
          - rowMax ⊥ (fun k => pert (Cert.Consts.eps : EReal) (X (ix2 p k)) (U (ix2 p k)))) := by
  have hs : ∀ k : Fin 100000, val_main_v17 (F := Ideal) X U (ix2 p k) = _ := fun k => exp_apply X U p k
  rw [← Finset.sum_congr rfl (fun k _ => hs k)]
  unfold val_main_v20 val_main_v19 val_main_v18
  generalize val_main_v17 (F := Ideal) X U = z
  refine (Cert.LibRowSums.broadcastInDim_a1_ab_apply _ _ p q).trans ?_
  refine (Cert.LibRowSums.hostRowSum_apply z (val_main_cst_4 (F := Ideal)) _ _ (by decide) _ p (0 : Fin 1)).trans ?_
  rw [val_main_cst_4_apply, Ideal.ofBits_def, Cert.Consts.ofBits_zero]

/-- THE REFERENCE'S RESULT at entry `(p, q)`: the two-logarithm row function of row `p` at position `q`. -/
theorem result_apply (X U : FVec Ideal S128x100000 .f32) (p : Fin 128) (q : Fin 100000) :
    val_main_v21 (F := Ideal) X U (ix2 p q)
      = refRow (Cert.Consts.eps : EReal) (fun k => X (ix2 p k)) (fun k => U (ix2 p k)) q := by
  rw [val_main_v21_apply, exp_apply, sum_apply]
  rfl

end Cert.ReferenceRow

end
-- ==== Proof.PreDecode.lean ====
/-
  What the input condition says of the two input arrays, entry by entry.

  The condition is the conjunction of four "for every entry" tests: |logits| < +∞, |noise| < +∞, noise + ε > 0 and
  −log (noise + ε) + ε > 0.  Each test is a comparison word reduced by "and" over the whole array from 1, so the
  condition being 1 gives every comparison at every entry.  On the extended reals the first two say that every logit
  and every noise entry is a real number; the last two say that both logarithms of the perturbation are taken of
  positive numbers.
-/
import proofs.«166174_g60181081751824_cont_9to1c4b_545_4_alg».proof.Pre_finite_inputs
import Idealize.ShloMosaic.Lib.ReduceAll
import Idealize.ShloMosaic.Lib.ValueIdx
import Idealize.ShloMosaic.Lib.Pipeline.Value
import Idealize.ShloMosaic.PureOps.Ideal.Laws
import proofs.«166174_g60181081751824_cont_9to1c4b_545_4_alg».proof.Proof.Consts

noncomputable section

namespace Cert.PreDecode

open Idealize.ShloMosaic Idealize.ShloMosaic.ValueIdx Cert.Pre_finite_inputs

/-- The rank-0 shape has one index. -/
instance : Subsingleton S_.Idx := ⟨fun _ _ => funext fun d => d.elim0⟩

/-- A "less than" comparison word that is 1 says the strict inequality. -/
theorem lt_of_cmp_olt {x y : EReal} (h : Ideal.cmp .olt x y = 1#1) : x < y := by
  by_contra hn
  simp [Ideal.cmp, hn] at h

/-- A "greater than" comparison word that is 1 says the strict inequality. -/
theorem lt_of_cmp_ogt {x y : EReal} (h : Ideal.cmp .ogt x y = 1#1) : y < x := by
  by_contra hn
  simp [Ideal.cmp, hn] at h

/-- An extended real whose absolute value is below +∞ is a real number. -/
theorem real_of_abs_lt_top {x : EReal} (h : max x (-x) < ⊤) : ∃ r : ℝ, x = (r : EReal) := by
  induction x using EReal.rec with
  | bot => simp at h
  | coe r => exact ⟨r, rfl⟩
  | top => simp at h

/-- A scalar constant broadcast over the whole array reads, at every entry, the number its word denotes. -/
theorem bcast_scalar [Facts] (w : BitVec 32) (i : S128x100000.Idx) :
    broadcastInDim S128x100000 ![] Facts.bcast_S_S128x100000 (constant (F := Ideal) S_ .f32 w) i = Ideal.ofBits .f32 w :=
  broadcastInDim_apply _ Facts.bcast_S_S128x100000 _ i (fun a => a.elim0) (fun a => a.elim0)

/-- THE INPUT CONDITION, READ BACK: every logit and every noise entry is a real number, and at every entry
    noise + ε and −log (noise + ε) + ε are positive. -/
theorem decode [Facts] (X U : FVec Ideal S128x100000 .f32) (h : fn (F := Ideal) X U = fun _ => 1#1) :
    (∀ i, ∃ r : ℝ, X i = (r : EReal)) ∧ (∀ i, ∃ r : ℝ, U i = (r : EReal))
    ∧ (∀ i, (0 : EReal) < U i + (Cert.Consts.eps : EReal))
    ∧ (∀ i, (0 : EReal) < -(Ideal.log (U i + (Cert.Consts.eps : EReal))) + (Cert.Consts.eps : EReal)) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · have e := Host.reduce_andi_all _ _ _ _ ix0 h1 i
    have e' : Ideal.cmp .olt (max (X i) (-(X i))) (Ideal.ofBits .f32 0x7F800000#32) = 1#1 := by
      rw [← bcast_scalar 0x7F800000#32 i]; exact e
    rw [Cert.Consts.ofBits_inf] at e'
    exact real_of_abs_lt_top (lt_of_cmp_olt e')
  · have e := Host.reduce_andi_all _ _ _ _ ix0 h2 i
    have e' : Ideal.cmp .olt (max (U i) (-(U i))) (Ideal.ofBits .f32 0x7F800000#32) = 1#1 := by
      rw [← bcast_scalar 0x7F800000#32 i]; exact e
    rw [Cert.Consts.ofBits_inf] at e'
    exact real_of_abs_lt_top (lt_of_cmp_olt e')
  · have e := Host.reduce_andi_all _ _ _ _ ix0 h3 i
    have e' : Ideal.cmp .ogt (U i + Ideal.ofBits .f32 0x1E3CE508#32) (Ideal.ofBits .f32 0x00000000#32) = 1#1 := by
      rw [← bcast_scalar 0x1E3CE508#32 i, ← bcast_scalar 0x00000000#32 i]; exact e
    rw [Cert.Consts.ofBits_eps, Cert.Consts.ofBits_zero] at e'
    exact lt_of_cmp_ogt e'
  · have e := Host.reduce_andi_all _ _ _ _ ix0 h4 i
    have e' : Ideal.cmp .ogt (-(Ideal.log (U i + Ideal.ofBits .f32 0x1E3CE508#32)) + Ideal.ofBits .f32 0x1E3CE508#32)
        (Ideal.ofBits .f32 0x00000000#32) = 1#1 := by
      rw [← bcast_scalar 0x1E3CE508#32 i, ← bcast_scalar 0x00000000#32 i]; exact e
    rw [Cert.Consts.ofBits_eps, Cert.Consts.ofBits_zero] at e'
    exact lt_of_cmp_ogt e'

end Cert.PreDecode

end
-- ==== Proof.Bridge.lean ====
/-
  The two programs compute the same array, on inputs that meet the input condition.

  Entry (p, q) of the reference's result is the two-logarithm arrangement of row p; entry (p, q) of the whole-array
  function the kernel ends at is the one-logarithm arrangement of the same row.  The input condition makes every logit
  and every noise entry a real number and keeps both logarithms inside their domain, and there the two arrangements
  of a (nonempty) row agree.
-/
import proofs.«166174_g60181081751824_cont_9to1c4b_545_4_alg».proof.Proof.ReferenceRow
import proofs.«166174_g60181081751824_cont_9to1c4b_545_4_alg».proof.Proof.WholeArray
import proofs.«166174_g60181081751824_cont_9to1c4b_545_4_alg».proof.Proof.PreDecode
import proofs.«166174_g60181081751824_cont_9to1c4b_545_4_alg».proof.Proof.LibGumbelSoftmax

noncomputable section

namespace Cert.Bridge

open Idealize.ShloMosaic Idealize.ShloMosaic.ValueIdx
open Cert.WholeArray (G SArr)

/-- THE REFERENCE'S RESULT IS THE WHOLE-ARRAY FUNCTION of the same inputs, wherever the input condition holds. -/
theorem reference_eq [Cert.Pre_finite_inputs.Facts] (X U : FVec Ideal SArr .f32)
    (h : Cert.Pre_finite_inputs.fn (F := Ideal) X U = fun _ => 1#1) :
    Cert.ReferenceIdeal.Read.val_main_v21 (F := Ideal) X U = G X U := by
  obtain ⟨hx, hu, ha, hd⟩ := Cert.PreDecode.decode X U h
  choose xr hxr using hx
  choose ur hur using hu
  funext i
  obtain ⟨p, q, rfl⟩ : ∃ (p : Fin 128) (q : Fin 100000), i = ix2 p q := ⟨i 0, i 1, eq_ix2 i⟩
  rw [Cert.ReferenceRow.result_apply, Cert.WholeArray.G_apply]
  have ex : (fun k : Fin 100000 => X (ix2 p k)) = fun k => ((xr (ix2 p k) : ℝ) : EReal) := funext fun k => hxr _
  have eu : (fun k : Fin 100000 => U (ix2 p k)) = fun k => ((ur (ix2 p k) : ℝ) : EReal) := funext fun k => hur _
  rw [ex, eu]
  refine (Cert.LibGumbelSoftmax.kerRow_eq_refRow (by omega) Cert.Consts.eps (fun k => xr (ix2 p k))
    (fun k => ur (ix2 p k)) (fun k => ?_) (fun k => ?_) q).symm
  · rw [← hur]; exact ha _
  · rw [← hur]; exact hd _

end Cert.Bridge

end
-- ==== Proof.lean ====
/-
  The certificate of a fused Gumbel-softmax kernel against its two-pass reference.

  Both programs take logits x and uniform noise u of shape 128 × 100000 and return, row by row, the softmax of
  x + g with g = −log (−log (u + ε) + ε).  The reference computes it as written: two logarithms per entry, the row
  maximum of the perturbed logits, exponentials, the row sum, a quotient.  The kernel uses exp (g) = 1 / (ε − log (u + ε)):
  per block of 8 rows it forms exp (x − max x) · (1 / (ε − log (u + ε))), sums the row, and multiplies by the
  reciprocal of the sum — one logarithm per entry and the maximum over the logits alone.  The common factor
  exp (max x − max (x + g)) cancels between numerator and sum, so on the extended reals the two results are equal
  wherever every quantity is a real number: the logits and the noise finite, and the two logarithms taken of positive
  numbers (u + ε > 0 and −log (u + ε) + ε > 0), which is the input condition.

  The three runs: the kernel's two frames are the generated ones; the reference's frame is its generated run with the
  result dropped.  The idealized kernel is the kernel's own text read on the extended reals (no rewrite was applied).
  For the value claim, the kernel's run ends with the result array at the whole-array function G of the inputs
  (block by block, then the blocks tile the array), the reference's run ends at its operations' composed term, and that
  term is G of the same inputs.
-/
import proofs.«166174_g60181081751824_cont_9to1c4b_545_4_alg».proof.Defs
import proofs.«166174_g60181081751824_cont_9to1c4b_545_4_alg».proof.Proof.Gen.Kernel
import proofs.«166174_g60181081751824_cont_9to1c4b_545_4_alg».proof.Proof.Gen.Kernel.Skeleton
import proofs.«166174_g60181081751824_cont_9to1c4b_545_4_alg».proof.Proof.Gen.Kernel.Launch
import proofs.«166174_g60181081751824_cont_9to1c4b_545_4_alg».proof.Proof.Gen.Kernel.Points
import proofs.«166174_g60181081751824_cont_9to1c4b_545_4_alg».proof.Proof.Gen.Kernel.Frame
import proofs.«166174_g60181081751824_cont_9to1c4b_545_4_alg».proof.Proof.Gen.KernelIdeal
import proofs.«166174_g60181081751824_cont_9to1c4b_545_4_alg».proof.Proof.Gen.KernelIdeal.Skeleton
import proofs.«166174_g60181081751824_cont_9to1c4b_545_4_alg».proof.Proof.Gen.KernelIdeal.Launch
import proofs.«166174_g60181081751824_cont_9to1c4b_545_4_alg».proof.Proof.Gen.KernelIdeal.Points
import proofs.«166174_g60181081751824_cont_9to1c4b_545_4_alg».proof.Proof.Gen.KernelIdeal.Frame
import proofs.«166174_g60181081751824_cont_9to1c4b_545_4_alg».proof.Proof.Gen.ReferenceIdeal
import proofs.«166174_g60181081751824_cont_9to1c4b_545_4_alg».proof.Proof.Gen.Pre_finite_inputs
import proofs.«166174_g60181081751824_cont_9to1c4b_545_4_alg».proof.Proof.Gen.KernelIdeal.Value
import proofs.«166174_g60181081751824_cont_9to1c4b_545_4_alg».proof.Proof.Gen.ReferenceIdeal.Run
import proofs.«166174_g60181081751824_cont_9to1c4b_545_4_alg».proof.Proof.Gen.ReferenceIdeal.Read
import proofs.«166174_g60181081751824_cont_9to1c4b_545_4_alg».proof.Proof.KernelArray
import proofs.«166174_g60181081751824_cont_9to1c4b_545_4_alg».proof.Proof.Bridge
import Idealize.ShloMosaic.Adequacy
import Idealize.ShloMosaic.Init

noncomputable section

namespace Cert.Proof

open Idealize.ShloMosaic Idealize.SL.Sem

/-- The kernel, as printed, runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading: nothing to state. -/
theorem preserves : Cert.preserves_Kernel_KernelIdeal := trivial

/-- On inputs meeting the input condition, both programs end with the whole-array function of the inputs. -/
theorem algebraic : Cert.algebraic_KernelIdeal_ReferenceIdeal := by
  intro m ρ m' ρ' hpre hagree
  refine ⟨fun c => Cert.WholeArray.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v21_eq _ _).trans (Cert.Bridge.reference_eq _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
